-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x128 .f32) (main_arg3 : FVec F S128 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S1x64 : Shape := ⟨2, ![1, 64]⟩
abbrev S5000x64 : Shape := ⟨2, ![5000, 64]⟩
abbrev S5000x128 : Shape := ⟨2, ![5000, 128]⟩

abbrev nBuf : Space → Nat
  | .hbm => 26
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S1x128, .f32⟩
  | .hbm, ⟨24, _⟩ => ⟨S1x64, .f32⟩
  | .hbm, ⟨25, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S128_S1x128 : S128.ShapeCasts S1x128
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S_, .f32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Mlp.lean ====
/-
  The graph-isomorphism layer as one function of its arrays, over the extended reals.

  A node's input is its aggregated neighbour features plus one times its own features; the layer then applies a
  two-layer perceptron to that row: 128 hidden units, each the rectified sum over the 64 inputs of input times weight
  plus a bias, and 64 outputs, each the sum over the hidden units of unit times weight plus a bias. Nothing here knows
  how the aggregate was computed: it is an argument. Each output entry `(r, q)` depends on row `r` of the aggregate
  and of the features only, which is why computing the rows in blocks and computing them all at once agree.

  The two float literals (one and zero) stay as their words: both programs carry the same words, so they are never
  evaluated.
-/
import Idealize.ShloMosaic.PureOps.Ideal
import Idealize.ShloMosaic.Lib.ValueIdx

noncomputable section

open scoped BigOperators

namespace Cert.Gin

open Idealize.ShloMosaic Idealize.ShloMosaic.ValueIdx

/-- The self-loop's scale, `1.0`, as its word read at the ideal instance. -/
abbrev oneW : EReal := Ideal.ofBits .f32 0x3F800000#32
/-- The rectifier's floor, `0.0`, as its word read at the ideal instance. -/
abbrev zeroW : EReal := Ideal.ofBits .f32 0x00000000#32

/-- Hidden unit `k` of one node: the rectified affine form of the node's 64 inputs. -/
def hidden (h : Fin 64 → EReal) (W1 : Fin 64 → Fin 128 → EReal) (b1 : Fin 128 → EReal) (k : Fin 128) : EReal :=
  max ((∑ j : Fin 64, h j * W1 j k) + b1 k) zeroW

/-- Output `q` of one node: the affine form of its 128 hidden units. -/
def node (h : Fin 64 → EReal) (W1 : Fin 64 → Fin 128 → EReal) (b1 : Fin 128 → EReal) (W2 : Fin 128 → Fin 64 → EReal)
    (b2 : Fin 64 → EReal) (q : Fin 64) : EReal :=
  (∑ k : Fin 128, hidden h W1 b1 k * W2 k q) + b2 q

/-- A node's output depends on its five ingredients only through their values. -/
theorem node_congr {h h' : Fin 64 → EReal} {W1 W1' : Fin 64 → Fin 128 → EReal} {b1 b1' : Fin 128 → EReal}
    {W2 W2' : Fin 128 → Fin 64 → EReal} {b2 b2' : Fin 64 → EReal} (e1 : h = h') (e2 : W1 = W1') (e3 : b1 = b1')
    (e4 : W2 = W2') (e5 : b2 = b2') (q : Fin 64) : node h W1 b1 W2 b2 q = node h' W1' b1' W2' b2' q := by
  subst e1 e2 e3 e4 e5; rfl

/-- Entry `(r, q)` of the layer's result: the perceptron of node `r`'s input row, aggregate plus one times features. -/
def entry (agg x : (⟨2, ![50000, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (r : Fin 50000) (q : Fin 64) : EReal :=
  node (fun j => agg (ix2 r j) + oneW * x (ix2 r j)) (fun j k => W1 (ix2 j k)) (fun k => b1 (ix1 k))
    (fun k q => W2 (ix2 k q)) (fun q => b2 (ix1 q)) q

/-- The layer's result array. -/
def layer (agg x : (⟨2, ![50000, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) : (⟨2, ![50000, 64]⟩ : Shape).Idx → EReal :=
  fun i => entry agg x W1 b1 W2 b2 (i 0) (i 1)

/-- The result array at an index given by its coordinates. -/
theorem layer_ix2 (agg x : (⟨2, ![50000, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (r : Fin 50000) (q : Fin 64) :
    layer agg x W1 b1 W2 b2 (ix2 r q) = entry agg x W1 b1 W2 b2 r q := rfl

end Cert.Gin

end
-- ==== Proof.Body.lean ====
/-
  What one grid point computes, entry by entry.

  The kernel body loads a block of 5000 rows of the aggregate and of the features, the two weight matrices and the two
  bias rows, and stores ONE value: the perceptron of (aggregate + 1.0 * features), both matrix products into a zero
  accumulator, the roundings to bf16 on the way into each product being the identity over the extended reals. Read at
  entry (p, q) of the block that value is `Cert.Gin.node` of row p of the two loaded blocks.
-/
import proofs.«178436_j66340064854630_1_alg».proof.Proof.Gen.KernelIdeal.Skeleton
import proofs.«178436_j66340064854630_1_alg».proof.Proof.LibMatmulAt
import proofs.«178436_j66340064854630_1_alg».proof.Proof.Mlp
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Idealize.ShloMosaic.MatmulAt

/-- The first product's dimension numbers: [5000, 64] by [64, 128]. -/
abbrev D1 : DotDims S5000x64 S64x128 S5000x128 := dot_S5000x64_S64x128_S5000x128_1_0_0_1_n_n
/-- The second product's dimension numbers: [5000, 128] by [128, 64]. -/
abbrev D2 : DotDims S5000x128 S128x64 S5000x64 := dot_S5000x128_S128x64_S5000x64_1_0_0_1_n_n

/-! ## Where the two products read their operands -/

theorem D1_l0 (i : S5000x128.Idx) (q : D1.contr.Idx) : (D1.lhsIdx i q (0 : Fin 2)).val = (i (0 : Fin 2)).val := by
  unfold DotDims.lhsIdx
  rw [dif_neg (show ¬(0 : Fin S5000x64.rank) ∈ D1.lhsBatch by decide), dif_pos (show (0 : Fin S5000x64.rank) ∈ D1.lhsNonContracting by decide)]
  rfl
theorem D1_l1 (i : S5000x128.Idx) (q : D1.contr.Idx) : (D1.lhsIdx i q (1 : Fin 2)).val = (q ⟨0, by decide⟩).val :=
  D1.lhsIdx_val_of_single rfl i q
theorem D1_r0 (i : S5000x128.Idx) (q : D1.contr.Idx) : (D1.rhsIdx i q (0 : Fin 2)).val = (q ⟨0, by decide⟩).val :=
  D1.rhsIdx_val_of_single rfl i q
theorem D1_r1 (i : S5000x128.Idx) (q : D1.contr.Idx) : (D1.rhsIdx i q (1 : Fin 2)).val = (i (1 : Fin 2)).val := by
  unfold DotDims.rhsIdx
  rw [dif_neg (show ¬(1 : Fin S64x128.rank) ∈ D1.rhsBatch by decide), dif_pos (show (1 : Fin S64x128.rank) ∈ D1.rhsNonContracting by decide)]
  rfl

theorem D2_l0 (i : S5000x64.Idx) (q : D2.contr.Idx) : (D2.lhsIdx i q (0 : Fin 2)).val = (i (0 : Fin 2)).val := by
  unfold DotDims.lhsIdx
  rw [dif_neg (show ¬(0 : Fin S5000x128.rank) ∈ D2.lhsBatch by decide), dif_pos (show (0 : Fin S5000x128.rank) ∈ D2.lhsNonContracting by decide)]
  rfl
theorem D2_l1 (i : S5000x64.Idx) (q : D2.contr.Idx) : (D2.lhsIdx i q (1 : Fin 2)).val = (q ⟨0, by decide⟩).val :=
  D2.lhsIdx_val_of_single rfl i q
theorem D2_r0 (i : S5000x64.Idx) (q : D2.contr.Idx) : (D2.rhsIdx i q (0 : Fin 2)).val = (q ⟨0, by decide⟩).val :=
  D2.rhsIdx_val_of_single rfl i q
theorem D2_r1 (i : S5000x64.Idx) (q : D2.contr.Idx) : (D2.rhsIdx i q (1 : Fin 2)).val = (i (1 : Fin 2)).val := by
  unfold DotDims.rhsIdx
  rw [dif_neg (show ¬(1 : Fin S128x64.rank) ∈ D2.rhsBatch by decide), dif_pos (show (1 : Fin S128x64.rank) ∈ D2.rhsNonContracting by decide)]
  rfl

/-! ## The stored value at an entry -/

/-- Entry `(p, q)` of what the body stores is the perceptron of row `p` of the loaded aggregate and feature blocks. -/
theorem pay_apply (x0 x1 : Vec Ideal S5000x64 .f32) (x2 : Vec Ideal S64x128 .f32) (x3 : Vec Ideal S1x128 .f32)
    (x4 : Vec Ideal S128x64 .f32) (x5 : Vec Ideal S1x64 .f32) (p : Fin 5000) (q : Fin 64) :
    k0_pay1 (F := Ideal) x0 x1 x2 x3 x4 x5 (ix2 p q)
      = Cert.Gin.node (fun j => x0 (ix2 p j) + Cert.Gin.oneW * x1 (ix2 p j)) (fun j k => x2 (ix2 j k))
          (fun k => x3 (ix2 (0 : Fin 1) k)) (fun k q => x4 (ix2 k q)) (fun q => x5 (ix2 (0 : Fin 1) q)) q := by
  unfold k0_pay1 Cert.Gin.node
  refine congrArg₂ (fun u v : EReal => u + v) ?_ ?_
  · refine (matmul_zero_ix2 D2 rfl rfl D2_l0 D2_l1 D2_r0 D2_r1 none _ _ p q).trans ?_
    refine Finset.sum_congr rfl fun k _ => ?_
    refine congrArg (fun u : EReal => u * x4 (ix2 k q)) ?_
    unfold Cert.Gin.hidden
    refine congrArg (fun u : EReal => max u Cert.Gin.zeroW) ?_
    refine congrArg₂ (fun u v : EReal => u + v) ?_ ?_
    · refine (matmul_zero_ix2 D1 rfl rfl D1_l0 D1_l1 D1_r0 D1_r1 none _ _ p k).trans ?_
      refine Finset.sum_congr rfl fun j _ => ?_
      exact congrArg (fun u : EReal => (u + Cert.Gin.oneW * x1 (ix2 p j)) * x2 (ix2 j k))
        (congrFun (shapeCast_self x0 shapeCasts_S5000x64_S5000x64) (ix2 p j))
    · exact (broadcastTo_1b_ab_apply _ _ p k).trans (congrFun (shapeCast_self x3 _) _)
  · exact (broadcastTo_1b_ab_apply _ _ p q).trans (congrFun (shapeCast_self x5 _) _)

end Cert.KernelIdeal.Body

end
-- ==== Proof.HostArrays.lean ====
/-
  What the region finds in the buffers the host operations wrote before it.

  Before the one region @main computes the aggregate (a scatter-add, by destination node, of the feature rows gathered
  by source node) and reshapes the two biases to one-row matrices. The aggregate's term is named here once and never
  opened: the reference computes it by the same operations.
-/
import proofs.«178436_j66340064854630_1_alg».proof.Proof.Gen.KernelIdeal.Frame
import Idealize.ShloMosaic.PureOps.Ideal
import Idealize.ShloMosaic.Lib.Pipeline.Value
import Idealize.ShloMosaic.Lib.StableHlo.Run

noncomputable section

open scoped BigOperators

namespace Cert.KernelIdeal.HostArrays

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ)

/-! ## The arrays the host operations before the region write -/

/-- The aggregate as @main computes it from the features `x` and the edge list `e`: the source indices (row 0 of
    `e`, a negative one wrapped by the node count) gather rows of `x`, and the rows are added into a zero array at the
    destination indices (row 1 of `e`). Never opened: both programs compute it by the same operations. -/
def aggregate (x : FVec Ideal S50000x64 .f32) (e : IVec S2x800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (shapeCast _ (extractStridedSlice S1x800000 ![1, 0] e slices_S2x800000_S1x800000_1_0) shapeCasts_S1x800000_S800000))
    (Host.gather gather_S50000x64_S800000x1_S800000x64_1_0_n_n_0_1_164 x
      (broadcastInDim S800000x1 ![0] bcast_S800000_S800000x1_0
        (select (cmpi .slt (shapeCast _ (extractStridedSlice S1x800000 ![0, 0] e slices_S2x800000_S1x800000_0_0) shapeCasts_S1x800000_S800000) (broadcastInDim S800000 ![] bcast_S_S800000 (constantI S_ 32 0#32)))
          (addi (shapeCast _ (extractStridedSlice S1x800000 ![0, 0] e slices_S2x800000_S1x800000_0_0) shapeCasts_S1x800000_S800000) (broadcastInDim S800000 ![] bcast_S_S800000 (constantI S_ 32 50000#32)))
          (shapeCast _ (extractStridedSlice S1x800000 ![0, 0] e slices_S2x800000_S1x800000_0_0) shapeCasts_S1x800000_S800000))))

/-- The region finds the aggregate in the buffer of its first operand. -/
theorem V_agg (c : Dev nD) : (V m c main_v13 : S50000x64.Idx → EReal)
    = aggregate (m ((c : Thread nD τ).loc main_arg0)) (m ((c : Thread nD τ).loc main_arg1)) := by
  dsimp only [V, hostOps0]
  after_results
  rfl

/-- The region finds the first bias as a one-row matrix. -/
theorem V_bias1 (c : Dev nD) : (V m c main_v14 : S1x128.Idx → EReal)
    = shapeCast S1x128 (m ((c : Thread nD τ).loc main_arg3)) shapeCasts_S128_S1x128 := by
  dsimp only [V, hostOps0]
  after_results
  rfl

/-- The region finds the second bias as a one-row matrix. -/
theorem V_bias2 (c : Dev nD) : (V m c main_v15 : S1x64.Idx → EReal)
    = shapeCast S1x64 (m ((c : Thread nD τ).loc main_arg5)) shapeCasts_S64_S1x64 := by
  dsimp only [V, hostOps0]
  after_results
  rfl

end Cert.KernelIdeal.HostArrays

end
-- ==== Proof.Blocks.lean ====
/-
  From the ten blocks to the whole result array.

  The region has ten grid points; point t loads rows 5000 t … 5000 t + 4999 of the aggregate and of the features, the
  whole of the two weight matrices and bias rows, and writes back rows 5000 t … 5000 t + 4999 of the result. Each row
  of the result depends on the same row of the aggregate and of the features only (Body), so what point t writes back
  is block t of the layer's result array (Mlp's `layer`), and the ten blocks cover the array: the array ends holding
  `layer`.
-/
import proofs.«178436_j66340064854630_1_alg».proof.Proof.Gen.KernelIdeal.Value
import proofs.«178436_j66340064854630_1_alg».proof.Proof.Body
import proofs.«178436_j66340064854630_1_alg».proof.Proof.HostArrays
import Idealize.ShloMosaic.Lib.Pipeline.Value
import Idealize.ShloMosaic.Lib.ValueLayout
import Idealize.ShloMosaic.Lib.Tactic

noncomputable section

open scoped BigOperators

namespace Cert.KernelIdeal.Blocks

open Cert.KernelIdeal Cert.KernelIdeal.Gen Cert.KernelIdeal.HostArrays Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where each window's block sits -/

/-- The index maps over the ten points: the aggregate's, the features' and the result's block index is `(t, 0)`, the
    weights' and biases' is `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## A block read through its window, for ANY contents of the window's array

Stated for arbitrary contents `A`, so that nothing here depends on what the host operations wrote. -/

/-- Entry `y` of the block of a [50000, 64] array at block index `(t, 0)` is the array's entry in row `5000 t + y 0`:
    the aggregate's window. -/
theorem read0 (t : Fin cfg0.N) (A : S50000x64.Idx → EReal) (y : S5000x64.Idx) (i : S50000x64.Idx)
    (h0 : (i 0).val = 5000 * t.val + (y 0).val) (h1 : (i 1).val = (y 1).val) :
    (((cfg0.win 0).blk t).view.read (Elt Ideal) A : Vec Ideal S5000x64 .f32) y = A i := by
  obtain ⟨e0, e1, -⟩ := idx_facts t
  have hemb : ((cfg0.win 0).blk t).view.emb y = i := funext fun a => Fin.ext (by
    match a with
    | ⟨0, _⟩ => show win0_0.index t (0 : Fin 2) * 5000 + 1 * (y 0).val = (i 0).val; rw [e0, h0]; omega
    | ⟨1, _⟩ => show win0_0.index t (1 : Fin 2) * 64 + 1 * (y 1).val = (i 1).val; rw [e1, h1]; omega)
  rw [View.read_apply, hemb]
  rfl

/-- The same for the features' window. -/
theorem read1 (t : Fin cfg0.N) (A : S50000x64.Idx → EReal) (y : S5000x64.Idx) (i : S50000x64.Idx)
    (h0 : (i 0).val = 5000 * t.val + (y 0).val) (h1 : (i 1).val = (y 1).val) :
    (((cfg0.win 1).blk t).view.read (Elt Ideal) A : Vec Ideal S5000x64 .f32) y = A i := by
  obtain ⟨-, -, e0, e1, -⟩ := idx_facts t
  have hemb : ((cfg0.win 1).blk t).view.emb y = i := funext fun a => Fin.ext (by
    match a with
    | ⟨0, _⟩ => show win0_1.index t (0 : Fin 2) * 5000 + 1 * (y 0).val = (i 0).val; rw [e0, h0]; omega
    | ⟨1, _⟩ => show win0_1.index t (1 : Fin 2) * 64 + 1 * (y 1).val = (i 1).val; rw [e1, h1]; omega)
  rw [View.read_apply, hemb]
  rfl

/-- The first weight matrix's block is the whole matrix at every point. -/
theorem read2 (t : Fin cfg0.N) (A : S64x128.Idx → EReal) (y : S64x128.Idx) :
    (((cfg0.win 2).blk t).view.read (Elt Ideal) A : Vec Ideal S64x128 .f32) y = A y := by
  obtain ⟨-, -, -, -, e0, e1, -⟩ := idx_facts t
  have hemb : ((cfg0.win 2).blk t).view.emb y = y := funext fun a => Fin.ext (by
    match a with
    | ⟨0, _⟩ => show win0_2.index t (0 : Fin 2) * 64 + 1 * (y 0).val = (y 0).val; rw [e0]; omega
    | ⟨1, _⟩ => show win0_2.index t (1 : Fin 2) * 128 + 1 * (y 1).val = (y 1).val; rw [e1]; omega)
  rw [View.read_apply, hemb]
  rfl

/-- The first bias row's block is the whole row at every point. -/
theorem read3 (t : Fin cfg0.N) (A : S1x128.Idx → EReal) (y : S1x128.Idx) :
    (((cfg0.win 3).blk t).view.read (Elt Ideal) A : Vec Ideal S1x128 .f32) y = A y := by
  obtain ⟨-, -, -, -, -, -, e0, e1, -⟩ := idx_facts t
  have hemb : ((cfg0.win 3).blk t).view.emb y = y := funext fun a => Fin.ext (by
    match a with
    | ⟨0, _⟩ => show win0_3.index t (0 : Fin 2) * 1 + 1 * (y 0).val = (y 0).val; rw [e0]; omega
    | ⟨1, _⟩ => show win0_3.index t (1 : Fin 2) * 128 + 1 * (y 1).val = (y 1).val; rw [e1]; omega)
  rw [View.read_apply, hemb]
  rfl

/-- The second weight matrix's block is the whole matrix at every point. -/
theorem read4 (t : Fin cfg0.N) (A : S128x64.Idx → EReal) (y : S128x64.Idx) :
    (((cfg0.win 4).blk t).view.read (Elt Ideal) A : Vec Ideal S128x64 .f32) y = A y := by
  obtain ⟨-, -, -, -, -, -, -, -, e0, e1, -⟩ := idx_facts t
  have hemb : ((cfg0.win 4).blk t).view.emb y = y := funext fun a => Fin.ext (by
    match a with
    | ⟨0, _⟩ => show win0_4.index t (0 : Fin 2) * 128 + 1 * (y 0).val = (y 0).val; rw [e0]; omega
    | ⟨1, _⟩ => show win0_4.index t (1 : Fin 2) * 64 + 1 * (y 1).val = (y 1).val; rw [e1]; omega)
  rw [View.read_apply, hemb]
  rfl

/-- The second bias row's block is the whole row at every point. -/
theorem read5 (t : Fin cfg0.N) (A : S1x64.Idx → EReal) (y : S1x64.Idx) :
    (((cfg0.win 5).blk t).view.read (Elt Ideal) A : Vec Ideal S1x64 .f32) y = A y := by
  obtain ⟨-, -, -, -, -, -, -, -, -, -, e0, e1, -⟩ := idx_facts t
  have hemb : ((cfg0.win 5).blk t).view.emb y = y := funext fun a => Fin.ext (by
    match a with
    | ⟨0, _⟩ => show win0_5.index t (0 : Fin 2) * 1 + 1 * (y 0).val = (y 0).val; rw [e0]; omega
    | ⟨1, _⟩ => show win0_5.index t (1 : Fin 2) * 64 + 1 * (y 1).val = (y 1).val; rw [e1]; omega)
  rw [View.read_apply, hemb]
  rfl

/-! ## The six input blocks at a point, in terms of the argument arrays -/

/-- Row `y 0` of the aggregate's block at point `t` is row `5000 t + y 0` of the aggregate. -/
theorem agg_blk (c : Dev nD) (t : Fin cfg0.N) (y : S5000x64.Idx) (i : S50000x64.Idx)
    (h0 : (i 0).val = 5000 * t.val + (y 0).val) (h1 : (i 1).val = (y 1).val) :
    (iblk m c 0 t : Vec Ideal S5000x64 .f32) y
      = aggregate (m ((c : Thread nD τ).loc main_arg0)) (m ((c : Thread nD τ).loc main_arg1)) i := by
  refine Eq.trans ?_ (congrFun (V_agg m c) i)
  unfold iblk
  exact read0 t (V m c main_v13) y i h0 h1

/-- Row `y 0` of the features' block at point `t` is row `5000 t + y 0` of the features. -/
theorem x_blk (c : Dev nD) (t : Fin cfg0.N) (y : S5000x64.Idx) (i : S50000x64.Idx)
    (h0 : (i 0).val = 5000 * t.val + (y 0).val) (h1 : (i 1).val = (y 1).val) :
    (iblk m c 1 t : Vec Ideal S5000x64 .f32) y = (m ((c : Thread nD τ).loc main_arg0) : S50000x64.Idx → EReal) i := by
  refine Eq.trans ?_ (congrFun (V_main_arg0 m c) i)
  unfold iblk
  exact read1 t (V m c main_arg0) y i h0 h1

/-- The first weight matrix's block is the matrix. -/
theorem w1_blk (c : Dev nD) (t : Fin cfg0.N) (y : S64x128.Idx) :
    (iblk m c 2 t : Vec Ideal S64x128 .f32) y = (m ((c : Thread nD τ).loc main_arg2) : S64x128.Idx → EReal) y := by
  refine Eq.trans ?_ (congrFun (V_main_arg2 m c) y)
  unfold iblk
  exact read2 t (V m c main_arg2) y

/-- The first bias row's block, at column `k`, is the bias at `k`. -/
theorem b1_blk (c : Dev nD) (t : Fin cfg0.N) (k : Fin 128) :
    (iblk m c 3 t : Vec Ideal S1x128 .f32) (ix2 (0 : Fin 1) k) = (m ((c : Thread nD τ).loc main_arg3) : S128.Idx → EReal) (ix1 k) := by
  refine Eq.trans ?_ ((congrFun (V_bias1 m c) (ix2 (0 : Fin 1) k)).trans (shapeCast_a_1a_apply _ _ (0 : Fin 1) k))
  unfold iblk
  exact read3 t (V m c main_v14) (ix2 (0 : Fin 1) k)

/-- The second weight matrix's block is the matrix. -/
theorem w2_blk (c : Dev nD) (t : Fin cfg0.N) (y : S128x64.Idx) :
    (iblk m c 4 t : Vec Ideal S128x64 .f32) y = (m ((c : Thread nD τ).loc main_arg4) : S128x64.Idx → EReal) y := by
  refine Eq.trans ?_ (congrFun (V_main_arg4 m c) y)
  unfold iblk
  exact read4 t (V m c main_arg4) y

/-- The second bias row's block, at column `q`, is the bias at `q`. -/
theorem b2_blk (c : Dev nD) (t : Fin cfg0.N) (q : Fin 64) :
    (iblk m c 5 t : Vec Ideal S1x64 .f32) (ix2 (0 : Fin 1) q) = (m ((c : Thread nD τ).loc main_arg5) : S64.Idx → EReal) (ix1 q) := by
  refine Eq.trans ?_ ((congrFun (V_bias2 m c) (ix2 (0 : Fin 1) q)).trans (shapeCast_a_1a_apply _ _ (0 : Fin 1) q))
  unfold iblk
  exact read5 t (V m c main_v15) (ix2 (0 : Fin 1) q)

end Cert.KernelIdeal.Blocks

end
-- ==== Proof.Whole.lean ====
/-
  The result array after the run.

  What point t writes back is block t of the layer's result array: entry (p, q) of the stored value is the perceptron
  of row p of the loaded blocks (Body), row p of the aggregate's and the features' block is row 5000 t + p of the
  arrays, the weight and bias blocks are the arrays themselves (Blocks), and entry (p, q) of block t of the result
  array sits at (5000 t + p, q). Row r of the array lies in the block of point r / 5000, so the ten blocks cover the
  array and it ends holding the layer.
-/
import proofs.«178436_j66340064854630_1_alg».proof.Proof.Blocks

noncomputable section

open scoped BigOperators

namespace Cert.KernelIdeal.Whole

open Cert.KernelIdeal Cert.KernelIdeal.Gen Cert.KernelIdeal.HostArrays Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

-- the aggregate is a name here: nothing below may open it
attribute [local irreducible] aggregate

/-- What the result array ends holding: the layer of the aggregate and the five other arguments. -/
def result (c : Dev nD) : S50000x64.Idx → EReal :=
  Cert.Gin.layer (aggregate (m ((c : Thread nD τ).loc main_arg0)) (m ((c : Thread nD τ).loc main_arg1)))
    (m ((c : Thread nD τ).loc main_arg0)) (m ((c : Thread nD τ).loc main_arg2)) (m ((c : Thread nD τ).loc main_arg3))
    (m ((c : Thread nD τ).loc main_arg4)) (m ((c : Thread nD τ).loc main_arg5))

theorem hz : (![0, 0] : Fin 2 → Nat) = fun _ => 0 := funext fun a => by fin_cases a <;> rfl

/-- Entry `(p, q)` of the stored value at point `t` is entry `(5000 t + p, q)` of the layer. -/
theorem stored_apply (c : Dev nD) (t : Fin cfg0.N) (p : Fin 5000) (q : Fin 64) (r : Fin 50000)
    (hr : r.val = 5000 * t.val + p.val) :
    k0_pay1 (F := Ideal) (iblk m c 0 t) (iblk m c 1 t) (iblk m c 2 t) (iblk m c 3 t) (iblk m c 4 t) (iblk m c 5 t) (ix2 p q)
      = result m c (ix2 r q) := by
  refine (Body.pay_apply (iblk m c 0 t) (iblk m c 1 t) (iblk m c 2 t) (iblk m c 3 t) (iblk m c 4 t) (iblk m c 5 t) p q).trans ?_
  unfold result
  rw [Cert.Gin.layer_ix2]
  unfold Cert.Gin.entry
  refine Cert.Gin.node_congr ?_ ?_ ?_ ?_ ?_ q
  · funext j
    exact congrArg₂ (fun u v : EReal => u + Cert.Gin.oneW * v)
      (agg_blk m c t (ix2 p j) (ix2 r j) hr rfl) (x_blk m c t (ix2 p j) (ix2 r j) hr rfl)
  · funext j k; exact w1_blk m c t (ix2 j k)
  · funext k; exact b1_blk m c t k
  · funext k q'; exact w2_blk m c t (ix2 k q')
  · funext q'; exact b2_blk m c t q'

/-- A block-sized value `X` written back at point `t` is block `t` of an array `G` as soon as its entry `(p, q)` is
    `G`'s entry `(5000 t + p, q)`: stated for any `X` and `G`. -/
theorem flush_read (t : Fin cfg0.N) (X : S5000x64.Idx → EReal) (G : S50000x64.Idx → EReal)
    (h : ∀ (p : Fin 5000) (q : Fin 64) (r : Fin 50000), r.val = 5000 * t.val + p.val → X (ix2 p q) = G (ix2 r q)) :
    (cfg0.win 6).cut (grid0.coords t) X = ((cfg0.win 6).blk t).view.read (Elt Ideal) G := by
  funext y
  obtain ⟨p, q, rfl⟩ : ∃ (p : Fin 5000) (q : Fin 64), y = ix2 p q := ⟨y 0, y 1, eq_ix2 y⟩
  have hN : grid0.N = 10 := N_0
  have ht : t.val < 10 := hN ▸ t.isLt
  obtain ⟨-, -, -, -, -, -, -, -, -, -, -, -, e0, e1⟩ := idx_facts t
  have hemb : ((cfg0.win 6).blk t).view.emb (ix2 p q) = ix2 (⟨5000 * t.val + p.val, by omega⟩ : Fin 50000) q :=
    funext fun a => Fin.ext (by
      match a with
      | ⟨0, _⟩ => show win0_6.index t (0 : Fin 2) * 5000 + 1 * p.val = 5000 * t.val + p.val; rw [e0]; omega
      | ⟨1, _⟩ => show win0_6.index t (1 : Fin 2) * 64 + 1 * q.val = q.val; rw [e1]; omega)
  rw [View.read_apply, hemb]
  exact h p q ⟨5000 * t.val + p.val, by omega⟩ rfl

/-- WHAT POINT `t` WRITES BACK is block `t` of the layer's result array. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S5000x64) hz, View.ld_unit_zero (S := S64x128) hz, View.ld_unit_zero (S := S1x128) hz,
    View.ld_unit_zero (S := S128x64) hz, View.ld_unit_zero (S := S1x64) hz]
  exact flush_read t _ (result m c) (fun p q r hr => stored_apply m c t p q r hr)

/-- An index of the array is in point `t`'s block iff each coordinate is in the block's range on its axis. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every index of the result array is in the block of the point its row falls in. -/
theorem cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hN : grid0.N = 10 := N_0
  obtain ⟨t, ht⟩ : ∃ t : Fin cfg0.N, t.val = (i 0).val / 5000 := ⟨⟨(i 0).val / 5000, by show _ < grid0.N; rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 64 ≤ (i 1).val ∧ (i 1).val < win0_6.index t (1 : Fin 2) * 64 + 64
    rw [e1]; omega

/-- THE ARRAY after the run is the layer's result. -/
theorem final (c : Dev nD) : (dats m 0 c).arrAt 6 cfg0.N = result m c :=
  (dats m 0 c).arrAt_eq_of_cover 6 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefLayer.lean ====
/-
  The reference, read entry by entry, is the layer.

  The reference computes the same aggregate, adds one times the features, and applies the perceptron to all 50000 rows
  at once: a product with the first weight matrix, the first bias broadcast over the rows, the maximum with zero, a
  product with the second weight matrix, the second bias broadcast over the rows. At entry (r, q) each product is a
  sum over its one contracted coordinate, each broadcast reads the bias at the column, and what is left is
  `Cert.Gin.entry` of the aggregate stage, word for word.
-/
import proofs.«178436_j66340064854630_1_alg».proof.Proof.Gen.ReferenceIdeal.Read
import proofs.«178436_j66340064854630_1_alg».proof.Proof.Mlp

noncomputable section

open scoped BigOperators

namespace Cert.ReferenceIdeal.Layer

open Cert.ReferenceIdeal Cert.ReferenceIdeal.Read Idealize.ShloMosaic Idealize.ShloMosaic.ValueIdx

/-! ## The operand indices of the two products and of the two bias broadcasts, by coordinates -/

theorem lidx22 (r : Fin 50000) (q : Fin 64) (k : Fin 128) : lidx_main_v22 (ix2 r q) k = ix2 r k :=
  funext fun a => Fin.ext (by match a with | ⟨0, _⟩ => rfl | ⟨1, _⟩ => rfl)
theorem ridx22 (r : Fin 50000) (q : Fin 64) (k : Fin 128) : ridx_main_v22 (ix2 r q) k = ix2 k q :=
  funext fun a => Fin.ext (by match a with | ⟨0, _⟩ => rfl | ⟨1, _⟩ => rfl)
theorem lidx17 (r : Fin 50000) (k : Fin 128) (j : Fin 64) : lidx_main_v17 (ix2 r k) j = ix2 r j :=
  funext fun a => Fin.ext (by match a with | ⟨0, _⟩ => rfl | ⟨1, _⟩ => rfl)
theorem ridx17 (r : Fin 50000) (k : Fin 128) (j : Fin 64) : ridx_main_v17 (ix2 r k) j = ix2 j k :=
  funext fun a => Fin.ext (by match a with | ⟨0, _⟩ => rfl | ⟨1, _⟩ => rfl)
theorem idx19 (r : Fin 50000) (k : Fin 128) : idx_main_v18 (idx_main_v19 (ix2 r k)) = ix1 k :=
  funext fun a => Fin.ext (by match a with | ⟨0, _⟩ => rfl)
theorem idx24 (r : Fin 50000) (q : Fin 64) : idx_main_v23 (idx_main_v24 (ix2 r q)) = ix1 q :=
  funext fun a => Fin.ext (by match a with | ⟨0, _⟩ => rfl)

/-! ## The stages at an entry -/

/-- The self-loop stage at `(r, j)`: the aggregate stage plus one times the features. -/
theorem input_apply (x0 : (⟨S50000x64, .f32⟩ : BufTy).Contents (Elt Ideal)) (x1 : (⟨S2x800000, .i32⟩ : BufTy).Contents (Elt Ideal))
    (r : Fin 50000) (j : Fin 64) :
    val_main_v16 (F := Ideal) x0 x1 (ix2 r j) = val_main_v13 (F := Ideal) x0 x1 (ix2 r j) + Cert.Gin.oneW * x0 (ix2 r j) := by
  rw [val_main_v16_apply, val_main_v15_apply, val_main_v14_apply, val_main_cst_1_apply]
  rfl

/-- The rectified stage at `(r, k)` is hidden unit `k` of node `r`. -/
theorem hidden_apply (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (r : Fin 50000) (k : Fin 128) :
    val_main_v21 (F := Ideal) x0 x1 x2 x3 (ix2 r k)
      = Cert.Gin.hidden (fun j => val_main_v13 (F := Ideal) x0 x1 (ix2 r j) + Cert.Gin.oneW * x0 (ix2 r j))
          (fun j k => x2 (ix2 j k)) (fun k => x3 (ix1 k)) k := by
  rw [val_main_v21_apply, val_main_v20_apply, val_main_v17_apply, val_main_v19_apply, val_main_v18_apply,
    val_main_call0_v0_apply, val_main_call0_cst_apply, idx19]
  unfold Cert.Gin.hidden
  refine congrArg (fun u : EReal => max u Cert.Gin.zeroW) ?_
  refine congrArg (fun u : EReal => u + x3 (ix1 k)) ?_
  refine Finset.sum_congr rfl fun j _ => ?_
  rw [lidx17, ridx17, input_apply]

/-- The reference's result stage is the layer of its aggregate stage. -/
theorem layer_eq (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v25 (F := Ideal) x0 x1 x2 x3 x4 x5 = Cert.Gin.layer (val_main_v13 (F := Ideal) x0 x1) x0 x2 x3 x4 x5 := by
  funext i
  obtain ⟨r, q, rfl⟩ : ∃ (r : Fin 50000) (q : Fin 64), i = ix2 r q := ⟨i 0, i 1, eq_ix2 i⟩
  rw [Cert.Gin.layer_ix2, val_main_v25_apply, val_main_v22_apply, val_main_v24_apply, val_main_v23_apply, idx24]
  unfold Cert.Gin.entry Cert.Gin.node
  refine congrArg (fun u : EReal => u + x5 (ix1 q)) ?_
  refine Finset.sum_congr rfl fun k _ => ?_
  rw [lidx22, ridx22, hidden_apply]

end Cert.ReferenceIdeal.Layer

end
-- ==== Proof.AggSame.lean ====
/-
  The two programs compute the aggregate by the same operations.

  The kernel's @main and the reference slice the edge list into source and destination rows, wrap a negative source
  index by the node count, gather the feature rows at the source indices and scatter-add them into a zero array at the
  destination indices — operation for operation, literal for literal, with the same dimension numbers. The two terms
  differ only in which program's copy of the shape names and dimension records they mention, and those copies have the
  same fields: the terms are equal by unfolding the names, and the scatter-add itself is never opened.
-/
import proofs.«178436_j66340064854630_1_alg».proof.Proof.HostArrays
import proofs.«178436_j66340064854630_1_alg».proof.Proof.Gen.ReferenceIdeal.Read

noncomputable section

namespace Cert.Proof

open Idealize.ShloMosaic

/-- The gather's dimension numbers are the same record in both programs. -/
theorem gather_same : Cert.ReferenceIdeal.gather_S50000x64_S800000x1_S800000x64_1_0_n_n_0_1_164
    = Cert.KernelIdeal.gather_S50000x64_S800000x1_S800000x64_1_0_n_n_0_1_164 := rfl

/-- The scatter's dimension numbers are the same record in both programs. -/
theorem scatter_same : Cert.ReferenceIdeal.scatter_S50000x64_S800000x1_S800000x64_1_0_0_1
    = Cert.KernelIdeal.scatter_S50000x64_S800000x1_S800000x64_1_0_0_1 := rfl

/-- The reference's aggregate stage is the kernel program's aggregate, as functions of the features and the edge list. -/
theorem agg_same (x0 : FVec Ideal Cert.KernelIdeal.S50000x64 .f32) (x1 : IVec Cert.KernelIdeal.S2x800000 32) :
    Cert.ReferenceIdeal.Read.val_main_v13 (F := Ideal) x0 x1 = Cert.KernelIdeal.HostArrays.aggregate x0 x1 := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0 Cert.KernelIdeal.HostArrays.aggregate
  rw [scatter_same, gather_same]

end Cert.Proof

end
-- ==== Proof.lean ====
/-
  The graph-isomorphism layer: a Pallas kernel for the perceptron against its jnp reference, over the extended reals.

  Both programs first aggregate neighbour features on the host: the feature rows gathered at the edges' source nodes
  are scatter-added at the edges' destination nodes. The kernel program then runs ONE region of ten grid points; point
  t takes rows 5000 t … 5000 t + 4999 of the aggregate and of the features and computes, for each row,
      out = max ((agg + 1.0 · x) · W1 + b1, 0) · W2 + b2,
  both products into a zero accumulator, the operands rounded to bf16 on the way in. The reference computes the same
  expression for all 50000 rows at once with two `dot_general`s. Over the extended reals the roundings are the
  identity and each product entry is the plain sum over the contracted coordinate, so both programs' result at entry
  (r, q) is the same expression of row r of the aggregate and features, the weights and the biases, the sums and
  products in the same order: no algebraic law is needed and the finiteness of the inputs is never used.

  The modules: `Mlp` states that expression (`Cert.Gin.layer`); `LibMatmulAt` reads a matrix product at an entry;
  `Body` reads the value one grid point stores at an entry; `HostArrays` names what the host operations before the region
  wrote; `Blocks` reads each window's block as rows of its array; `Whole` covers the result array with the ten blocks;
  `RefLayer` reads the reference's result at an entry; `AggSame` identifies the two programs' aggregates. The ideal
  pass rewrote nothing in the kernel, so `preserves` is `True`.
-/
import proofs.«178436_j66340064854630_1_alg».proof.Defs
import proofs.«178436_j66340064854630_1_alg».proof.Proof.Gen.Kernel
import proofs.«178436_j66340064854630_1_alg».proof.Proof.Gen.Kernel.Frame
import proofs.«178436_j66340064854630_1_alg».proof.Proof.Gen.KernelIdeal
import proofs.«178436_j66340064854630_1_alg».proof.Proof.Gen.KernelIdeal.Frame
import proofs.«178436_j66340064854630_1_alg».proof.Proof.Gen.KernelIdeal.Value
import proofs.«178436_j66340064854630_1_alg».proof.Proof.Gen.ReferenceIdeal
import proofs.«178436_j66340064854630_1_alg».proof.Proof.Gen.ReferenceIdeal.Run
import proofs.«178436_j66340064854630_1_alg».proof.Proof.Gen.ReferenceIdeal.Read
import proofs.«178436_j66340064854630_1_alg».proof.Proof.Gen.Pre_finite_inputs
import proofs.«178436_j66340064854630_1_alg».proof.Proof.Whole
import proofs.«178436_j66340064854630_1_alg».proof.Proof.RefLayer
import proofs.«178436_j66340064854630_1_alg».proof.Proof.AggSame

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments the kernel program's result array ends at the layer of its aggregate
    (`Whole.run`) and the reference's at the layer of its aggregate stage (`Layer.layer_eq`); the two aggregates are one
    function of the features and the edge list (`agg_same`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v25_eq, Cert.ReferenceIdeal.Layer.layer_eq, agg_same, a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
